-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000x128 : Shape := ⟨2, ![640000, 128]⟩
abbrev S640000 : Shape := ⟨1, ![640000]⟩
abbrev S128x256 : Shape := ⟨2, ![128, 256]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S40000x128 .f32) (main_arg1 : FVec F S640000x128 .f32) (main_arg2 : IVec S640000 32) (main_arg3 : FVec F S128x256 .f32) (main_arg4 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S40000x128 : Shape := ⟨2, ![40000, 128]⟩
abbrev S640000x128 : Shape := ⟨2, ![640000, 128]⟩
abbrev S640000 : Shape := ⟨1, ![640000]⟩
abbrev S128x256 : Shape := ⟨2, ![128, 256]⟩
abbrev S128 : Shape := ⟨1, ![128]⟩
abbrev S_ : Shape := ⟨0, ![]⟩
abbrev S640000x1 : Shape := ⟨2, ![640000, 1]⟩
abbrev S128x128 : Shape := ⟨2, ![128, 128]⟩
abbrev S1x128 : Shape := ⟨2, ![1, 128]⟩
abbrev S4000x128 : Shape := ⟨2, ![4000, 128]⟩

abbrev nBuf : Space → Nat
  | .hbm => 15
  | .vmem => 9
  | .smem => 0
  | _ => 0

abbrev bufTy : (tb : Table) → Fin (tcTables nBuf tb) → BufTy
  | .hbm, ⟨0, _⟩ => ⟨S40000x128, .f32⟩
  | .hbm, ⟨1, _⟩ => ⟨S640000x128, .f32⟩
  | .hbm, ⟨2, _⟩ => ⟨S640000, .i32⟩
  | .hbm, ⟨3, _⟩ => ⟨S128x256, .f32⟩
  | .hbm, ⟨4, _⟩ => ⟨S128, .f32⟩
  | .hbm, ⟨5, _⟩ => ⟨S_, .f32⟩
  | .hbm, ⟨6, _⟩ => ⟨S40000x128, .f32⟩
  | .hbm, ⟨7, _⟩ => ⟨S640000x1, .i32⟩
  | .hbm, ⟨8, _⟩ => ⟨S40000x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S1x128, .f32⟩
  | .hbm, ⟨14, _⟩ => ⟨S40000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S40000x128 : S_.BroadcastsInDim S40000x128 (![] : Fin 0 → Fin S40000x128.rank)
  bcast_S640000_S640000x1_0 : S640000.BroadcastsInDim S640000x1 (![0] : Fin 1 → Fin S640000x1.rank)
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .f32 = 32 ∨ (Rect.block (s := S40000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S40000x128.size a
  hwx0_5 : ∀ i : grid0.Coords, EltTy.bits .f32 = 32 ∨ (Rect.block (s := S40000x128) S4000x128.size (cc0_transform_5 i) (hinb0_5 i)).WholeWords (EltTy.packing .f32)

variable [Facts₀]

def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S40000x128 : Shape := ⟨2, ![40000, 128]⟩
abbrev S640000x128 : Shape := ⟨2, ![640000, 128]⟩
abbrev S640000 : Shape := ⟨1, ![640000]⟩
abbrev S128x256 : Shape := ⟨2, ![128, 256]⟩
abbrev S128 : Shape := ⟨1, ![128]⟩
abbrev S_ : Shape := ⟨0, ![]⟩
abbrev S640000x1 : Shape := ⟨2, ![640000, 1]⟩
abbrev S40000x256 : Shape := ⟨2, ![40000, 256]⟩
abbrev S1x128 : Shape := ⟨2, ![1, 128]⟩

abbrev nBuf : Space → Nat
  | .hbm => 17
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000x128, .f32⟩
  | .hbm, ⟨2, _⟩ => ⟨S640000, .i32⟩
  | .hbm, ⟨3, _⟩ => ⟨S128x256, .f32⟩
  | .hbm, ⟨4, _⟩ => ⟨S128, .f32⟩
  | .hbm, ⟨5, _⟩ => ⟨S_, .f32⟩
  | .hbm, ⟨6, _⟩ => ⟨S40000x128, .f32⟩
  | .hbm, ⟨7, _⟩ => ⟨S640000x1, .i32⟩
  | .hbm, ⟨8, _⟩ => ⟨S40000x128, .f32⟩
  | .hbm, ⟨9, _⟩ => ⟨S40000x256, .f32⟩
  | .hbm, ⟨10, _⟩ => ⟨S40000x128, .f32⟩
  | .hbm, ⟨11, _⟩ => ⟨S1x128, .f32⟩
  | .hbm, ⟨12, _⟩ => ⟨S40000x128, .f32⟩
  | .hbm, ⟨13, _⟩ => ⟨S40000x128, .f32⟩
  | .hbm, ⟨14, _⟩ => ⟨S_, .f32⟩
  | .hbm, ⟨15, _⟩ => ⟨S40000x128, .f32⟩
  | .hbm, ⟨16, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  bcast_S_S40000x128 : S_.BroadcastsInDim S40000x128 (![] : Fin 0 → Fin S40000x128.rank)
  bcast_S640000_S640000x1_0 : S640000.BroadcastsInDim S640000x1 (![0] : Fin 1 → Fin S640000x1.rank)
  concatenates_S40000x128_S40000x128_S40000x256_d1 : Shape.Concatenates [S40000x128, S40000x128] S40000x256 1
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  scatter_S40000x128_S640000x1_S640000x128_1_0_0_1_wf : ScatterDims.WF S40000x128 S640000x1 S640000x128 [1] [0] [0] 1
  dot_S40000x256_S128x256_S40000x128_1_1_0_0_n_n_wf : DotDims.WF S40000x256 S128x256 S40000x128 [1] [1] [0] [0] [] []

variable [Facts₀]

def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x256_S128x256_S40000x128_1_1_0_0_n_n : DotDims S40000x256 S128x256 S40000x128 where
  lhsContracting := [1]
  rhsContracting := [1]
  lhsNonContracting := [0]
  rhsNonContracting := [0]
  lhsBatch := []
  rhsBatch := []
  wf := dot_S40000x256_S128x256_S40000x128_1_1_0_0_n_n_wf

class Facts : Prop extends Facts₀ where

variable [Facts]
-- ==== Proof.NodeUpdate.lean ====
/-
  The node update of a message-passing layer, as ONE function of its argument arrays.

  Each of the 40000 nodes carries 128 features `x[n, ·]` and has received an aggregate `agg[n, ·]` of the
  128-dimensional messages on its incoming edges. The layer applies one affine map to the 256-vector
  `[x[n, ·] | agg[n, ·]]`, with weights `W : [128, 256]` stored output-major and bias `b : [128]`, and clamps
  at zero:

      update x agg W b (n, o) = max (∑_{k<128} x[n,k]·W[o,k] + ∑_{k<128} agg[n,k]·W[o,128+k] + b[o]) 0.

  Written over the extended reals. The only algebra any use of this function needs is that a sum of 256 terms
  is the sum of its first 128 plus the sum of its last 128 (`sum_halves`): commutativity and associativity of
  addition, which hold on the extended reals as they stand, so no entry is ever assumed finite.
-/
import Idealize.ShloMosaic.PureOps.Ideal
import Idealize.ShloMosaic.Lib.ValueIdx

noncomputable section

namespace Cert.NodeUpdate

open Idealize.ShloMosaic Idealize.ShloMosaic.ValueIdx

/-- A sum over 256 terms splits into its first and its last 128 terms, in any commutative additive monoid. -/
theorem sum_halves {M : Type*} [AddCommMonoid M] (f : Fin 256 → M) :
    ∑ k : Fin 256, f k
      = (∑ k : Fin 128, f ⟨k.val, Nat.lt_of_lt_of_le k.isLt (by decide)⟩)
        + ∑ k : Fin 128, f ⟨128 + k.val, Nat.add_lt_add_left k.isLt 128⟩ :=
  Fin.sum_univ_add (a := 128) (b := 128) f

/-- Column `k` of the weights' first half (the node features' half). -/
abbrev colX (k : Fin 128) : Fin 256 := ⟨k.val, Nat.lt_of_lt_of_le k.isLt (by decide)⟩

/-- Column `128 + k` of the weights: column `k` of their second half (the aggregate's half). -/
abbrev colH (k : Fin 128) : Fin 256 := ⟨128 + k.val, Nat.add_lt_add_left k.isLt 128⟩

/-- One entry of the update: node `n`, output feature `o`. -/
def entry (x agg : FVec Ideal ⟨2, ![40000, 128]⟩ .f32) (W : FVec Ideal ⟨2, ![128, 256]⟩ .f32)
    (b : FVec Ideal ⟨1, ![128]⟩ .f32) (n : Fin 40000) (o : Fin 128) : EReal :=
  max ((∑ k : Fin 128, x (ix2 n k) * W (ix2 o (colX k)))
        + (∑ k : Fin 128, agg (ix2 n k) * W (ix2 o (colH k)))
        + b (ix1 o))
    (Ideal.ofBits .f32 0x00000000#32)

/-- The whole updated array. -/
def update (x agg : FVec Ideal ⟨2, ![40000, 128]⟩ .f32) (W : FVec Ideal ⟨2, ![128, 256]⟩ .f32)
    (b : FVec Ideal ⟨1, ![128]⟩ .f32) : FVec Ideal ⟨2, ![40000, 128]⟩ .f32 :=
  fun i => entry x agg W b (i 0) (i 1)

end Cert.NodeUpdate

end
-- ==== Proof.ReferenceUpdate.lean ====
/-
  The reference computes the node update.

  It joins the node features and the aggregate side by side into one [40000, 256] array, contracts that
  array's columns against the weights' columns, adds the bias to every row and clamps at zero. Read at an
  entry (n, o), the contraction is a sum over 256 columns; its first 128 terms read the node features and the
  first half of row `o` of the weights, its last 128 the aggregate and the second half: split in two, it is
  `NodeUpdate.entry`.
-/
import proofs.«124786_j39118562132568_1_alg».proof.Proof.Gen.ReferenceIdeal.Read
import proofs.«124786_j39118562132568_1_alg».proof.Proof.NodeUpdate
import Idealize.ShloMosaic.Lib.Pipeline.Value
import Idealize.ShloMosaic.Lib.ValueIdx
import Idealize.ShloMosaic.PureOps.Ideal.Laws

noncomputable section

namespace Cert.ReferenceIdeal.RefUpdate

open Cert.ReferenceIdeal Cert.ReferenceIdeal.Gen Cert.ReferenceIdeal.Read
open Idealize.ShloMosaic Idealize.ShloMosaic.ValueIdx Cert.NodeUpdate

/-- Columns 0 … 127 of the joined array are the node features. -/
theorem joined_left (x agg : FVec Ideal S40000x128 .f32) (n : Fin 40000) (k : Fin 128) :
    concatenate S40000x256 1 [⟨S40000x128, x⟩, ⟨S40000x128, agg⟩] concatenates_S40000x128_S40000x128_S40000x256_d1
        (ix2 n (colX k)) = x (ix2 n k) :=
  concatenate_pair_apply_left 1 x agg _ (ix2 n (colX k)) rfl (ix2 n k)
    (fun b => match b with | ⟨0, _⟩ => rfl | ⟨1, _⟩ => rfl)

/-- Columns 128 … 255 of the joined array are the aggregate. -/
theorem joined_right (x agg : FVec Ideal S40000x128 .f32) (n : Fin 40000) (k : Fin 128) :
    concatenate S40000x256 1 [⟨S40000x128, x⟩, ⟨S40000x128, agg⟩] concatenates_S40000x128_S40000x128_S40000x256_d1
        (ix2 n (colH k)) = agg (ix2 n k) :=
  concatenate_pair_apply_right 1 x agg _ (ix2 n (colH k)) rfl rfl (ix2 n k)
    (fun b hb => match b, hb with | ⟨0, _⟩, _ => rfl | ⟨1, _⟩, hb => absurd rfl hb)
    (Nat.add_comm _ _)

/-- The reference's result array is the node update of its arguments and of the aggregate it scatters. -/
theorem result_eq (x0 : FVec Ideal S40000x128 .f32) (x1 : FVec Ideal S640000x128 .f32) (x2 : IVec S640000 32)
    (x3 : FVec Ideal S128x256 .f32) (x4 : FVec Ideal S128 .f32) :
    val_main_v8 (F := Ideal) x0 x1 x2 x3 x4 = update x0 (val_main_v2 (F := Ideal) x1 x2) x3 x4 := by
  funext i
  obtain ⟨n, o, rfl⟩ : ∃ (n : Fin 40000) (o : Fin 128), i = ix2 n o := ⟨i 0, i 1, eq_ix2 i⟩
  rw [val_main_v8_apply, val_main_v7_apply, val_main_v4_apply, val_main_v6_apply, val_main_v5_apply,
    val_main_call0_v0_apply, val_main_call0_cst_apply, sum_halves]
  have hl : ∀ k : Fin 256, lidx_main_v4 (ix2 n o) k = ix2 n k := fun k => funext fun a => Fin.ext (by
    match a with | ⟨0, _⟩ => rfl | ⟨1, _⟩ => rfl)
  have hr : ∀ k : Fin 256, ridx_main_v4 (ix2 n o) k = ix2 o k := fun k => funext fun a => Fin.ext (by
    match a with | ⟨0, _⟩ => rfl | ⟨1, _⟩ => rfl)
  have hb : idx_main_v5 (idx_main_v6 (ix2 n o)) = ix1 o := funext fun a => Fin.ext (by
    match a with | ⟨0, _⟩ => rfl)
  simp only [hl, hr, hb]
  unfold val_main_v3
  simp only [joined_left x0 _ n, joined_right x0 _ n]
  rfl

end Cert.ReferenceIdeal.RefUpdate

end
-- ==== Proof.BlockUpdate.lean ====
/-
  What the kernel's body computes on one block of 4000 nodes, entry by entry.

  The body loads a block `xb` of node features and the matching block `ab` of aggregates (4000 rows of 128),
  the two 128 × 128 halves `wx`, `wh` of the weights already transposed to input-major, and the bias as one
  row. It forms the two matrix products into zero accumulators, adds them, adds the bias row to every row
  and clamps at zero. On the extended reals a change of float format is the identity and a product into a
  zero accumulator is the plain sum over the contracted axis, so entry (p, q) of the stored block is

      max (∑_k xb[p,k]·wx[k,q] + ∑_k ab[p,k]·wh[k,q] + bias[0,q]) 0.
-/
import proofs.«124786_j39118562132568_1_alg».proof.Proof.Gen.KernelIdeal.Skeleton
import proofs.«124786_j39118562132568_1_alg».proof.Proof.NodeUpdate
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BlockUpdate

open Cert.KernelIdeal Cert.KernelIdeal.Gen Idealize.ShloMosaic Idealize.ShloMosaic.ValueIdx Cert.NodeUpdate

/-- The dimension numbers of both products: rows of the left operand against columns of the right. -/
abbrev D : DotDims S4000x128 S128x128 S4000x128 := dot_S4000x128_S128x128_S4000x128_1_0_0_1_n_n

/-- The left operand is read in the output's row … -/
theorem lhs_row (i : S4000x128.Idx) (κ : D.contr.Idx) : (D.lhsIdx i κ 0).val = (i 0).val := by
  unfold DotDims.lhsIdx
  rw [dif_neg (show ¬(0 : Fin S4000x128.rank) ∈ D.lhsBatch by decide), dif_pos (show (0 : Fin S4000x128.rank) ∈ D.lhsNonContracting by decide)]
  rfl
/-- … at the contracted position, -/
theorem lhs_col (i : S4000x128.Idx) (κ : D.contr.Idx) : (D.lhsIdx i κ 1).val = (κ ⟨0, by decide⟩).val :=
  D.lhsIdx_val_of_single rfl i κ
/-- the right operand in the contracted row … -/
theorem rhs_row (i : S4000x128.Idx) (κ : D.contr.Idx) : (D.rhsIdx i κ 0).val = (κ ⟨0, by decide⟩).val :=
  D.rhsIdx_val_of_single rfl i κ
/-- … of the output's column. -/
theorem rhs_col (i : S4000x128.Idx) (κ : D.contr.Idx) : (D.rhsIdx i κ 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- A block product into the zero accumulator, at entry (p, q): the sum over the 128 contracted positions. -/
theorem product_apply {φ₁ φ₂ : FTy} (l : FVec Ideal S4000x128 φ₁) (r : FVec Ideal S128x128 φ₂) (p : Fin 4000) (q : Fin 128) :
    matmul D none l r (constant (F := Ideal) S4000x128 .f32 0x00000000#32) (ix2 p q) = ∑ k : Fin 128, l (ix2 p k) * r (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 128 rfl rfl).symm k) = ix2 k q := funext fun a => Fin.ext (by
    match a with
    | ⟨0, _⟩ => exact (rhs_row _ _).trans hk
    | ⟨1, _⟩ => exact rhs_col _ _)
  rw [el, er]

/-- Entry (p, q) of the block the body stores. -/
theorem body_apply (xb ab : Vec Ideal S4000x128 .f32) (wx wh : Vec Ideal S128x128 .f32) (bias : Vec Ideal S1x128 .f32)
    (p : Fin 4000) (q : Fin 128) :
    k0_pay1 (F := Ideal) xb ab wx wh bias (ix2 p q)
      = max ((∑ k : Fin 128, xb (ix2 p k) * wx (ix2 k q)) + (∑ k : Fin 128, ab (ix2 p k) * wh (ix2 k q))
              + bias (ix2 (0 : Fin 1) q))
          (Ideal.ofBits .f32 0x00000000#32) := by
  unfold k0_pay1
  rw [maximumf_apply, addf_apply, addf_apply, product_apply, product_apply, broadcastTo_1b_ab_apply, broadcast_apply]
  simp only [truncf_apply, shapeCast_self]
  rfl

/-- When the five loaded blocks are the matching pieces of the whole arrays — row `p` of the two row blocks is
    node `n`'s row of the features and of the aggregate, column `q` of the two weight blocks is row `o` of the
    weights' two halves, the bias row at `q` is `b[o]` — the stored entry (p, q) is the node update's entry (n, o). -/
theorem body_entry (x agg : FVec Ideal ⟨2, ![40000, 128]⟩ .f32) (W : FVec Ideal ⟨2, ![128, 256]⟩ .f32)
    (b : FVec Ideal ⟨1, ![128]⟩ .f32)
    (xb ab : Vec Ideal S4000x128 .f32) (wx wh : Vec Ideal S128x128 .f32) (bias : Vec Ideal S1x128 .f32)
    (n : Fin 40000) (o : Fin 128) (p : Fin 4000) (q : Fin 128)
    (hx : ∀ k : Fin 128, xb (ix2 p k) = x (ix2 n k)) (ha : ∀ k : Fin 128, ab (ix2 p k) = agg (ix2 n k))
    (hwx : ∀ k : Fin 128, wx (ix2 k q) = W (ix2 o (colX k))) (hwh : ∀ k : Fin 128, wh (ix2 k q) = W (ix2 o (colH k)))
    (hb : bias (ix2 (0 : Fin 1) q) = b (ix1 o)) :
    k0_pay1 (F := Ideal) xb ab wx wh bias (ix2 p q) = entry x agg W b n o := by
  rw [body_apply]
  simp only [hx, ha, hwx, hwh, hb]
  rfl

end Cert.KernelIdeal.BlockUpdate

end
-- ==== Proof.RegionArrays.lean ====
/-
  The arrays the kernel's region is launched on, read at coordinates.

  Before the region the host scatters the edge messages into the per-node aggregate, cuts the weights
  `W : [128, 256]` into their two 128-column halves and transposes each to input-major, and lays the bias
  out as one row. So, of the region's five input arrays: the first is the node features as given; the second
  is the aggregate; entry (k, q) of the third is `W[q, k]` and of the fourth `W[q, 128 + k]`; entry (0, q) of
  the fifth is `b[q]`.
-/
import proofs.«124786_j39118562132568_1_alg».proof.Proof.Gen.KernelIdeal.Frame
import proofs.«124786_j39118562132568_1_alg».proof.Proof.NodeUpdate
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.RegionArrays

open Cert.KernelIdeal Cert.KernelIdeal.Gen Idealize.ShloMosaic Idealize.ShloMosaic.TcCoe Idealize.SL.Sem
open Idealize.ShloMosaic.ValueIdx Idealize.ShloMosaic.StableHlo Cert.NodeUpdate

variable (m : (ℓ : Loc nD τ sig) → Buf (Elt Ideal) ℓ)

/-- The per-node aggregate: the edge messages `h` added into a zero array at the rows their destinations name. -/
def aggregate (h : FVec Ideal S640000x128 .f32) (dst : IVec S640000 32) : FVec Ideal S40000x128 .f32 :=
  Host.scatterAdd scatter_S40000x128_S640000x1_S640000x128_1_0_0_1
    (broadcastInDim S40000x128 ![] bcast_S_S40000x128 (constant (F := Ideal) S_ .f32 0x00000000#32))
    (broadcastInDim S640000x1 ![0] bcast_S640000_S640000x1_0 dst) h

/-- The region's second input array is the aggregate of the launch's messages and destinations. -/
theorem V_aggregate (c : Dev nD) :
    (V m c main_v2 : S40000x128.Idx → EReal)
      = aggregate (m ((c : Thread nD τ).loc main_arg1)) (m ((c : Thread nD τ).loc main_arg2)) := by
  dsimp only [Gen.V, Gen.hostOps0]; after_results <;> rfl

/-- The region's third input array: the weights' first half, transposed. -/
theorem V_wx (c : Dev nD) :
    (V m c main_v4 : S128x128.Idx → EReal)
      = transpose S128x128 [1, 0] (extractStridedSlice S128x128 ![0, 0] (m ((c : Thread nD τ).loc main_arg3)) slices_S128x256_S128x128_0_0)
          transposes_S128x128_S128x128_1_0 := by
  dsimp only [Gen.V, Gen.hostOps0]; after_results <;> rfl

/-- The region's fourth input array: the weights' second half, transposed. -/
theorem V_wh (c : Dev nD) :
    (V m c main_v6 : S128x128.Idx → EReal)
      = transpose S128x128 [1, 0] (extractStridedSlice S128x128 ![0, 128] (m ((c : Thread nD τ).loc main_arg3)) slices_S128x256_S128x128_0_128)
          transposes_S128x128_S128x128_1_0 := by
  dsimp only [Gen.V, Gen.hostOps0]; after_results <;> rfl

/-- The region's fifth input array: the bias as one row. -/
theorem V_bias (c : Dev nD) :
    (V m c main_v7 : S1x128.Idx → EReal)
      = shapeCast S1x128 (m ((c : Thread nD τ).loc main_arg4)) shapeCasts_S128_S1x128 := by
  dsimp only [Gen.V, Gen.hostOps0]; after_results <;> rfl

/-- Entry (k, q) of the third input array is `W[q, k]`. -/
theorem V_wx_apply (c : Dev nD) (k q : Fin 128) :
    (V m c main_v4 : S128x128.Idx → EReal) (ix2 k q)
      = (m ((c : Thread nD τ).loc main_arg3) : S128x256.Idx → EReal) (ix2 q (colX k)) := by
  refine (congrFun (V_wx m c) _).trans ?_
  refine (transpose_ix2_apply _ _ k q).trans ?_
  exact slice2_axis1_apply 0 _ _ q k (colX k) (Nat.zero_add _).symm

/-- Entry (k, q) of the fourth input array is `W[q, 128 + k]`. -/
theorem V_wh_apply (c : Dev nD) (k q : Fin 128) :
    (V m c main_v6 : S128x128.Idx → EReal) (ix2 k q)
      = (m ((c : Thread nD τ).loc main_arg3) : S128x256.Idx → EReal) (ix2 q (colH k)) := by
  refine (congrFun (V_wh m c) _).trans ?_
  refine (transpose_ix2_apply _ _ k q).trans ?_
  exact slice2_axis1_apply 128 _ _ q k (colH k) rfl

/-- Entry (0, q) of the fifth input array is `b[q]`. -/
theorem V_bias_apply (c : Dev nD) (u : Fin 1) (q : Fin 128) :
    (V m c main_v7 : S1x128.Idx → EReal) (ix2 u q)
      = (m ((c : Thread nD τ).loc main_arg4) : S128.Idx → EReal) (ix1 q) := by
  refine (congrFun (V_bias m c) _).trans ?_
  exact shapeCast_a_1a_apply _ _ u q

end Cert.KernelIdeal.RegionArrays

end
-- ==== Proof.KernelUpdate.lean ====
/-
  The kernel's result array is the node update.

  The grid has ten points; point `t` works on nodes 4000·t … 4000·t + 3999: it is handed rows 4000·t … of the
  node features and of the aggregate, the two transposed weight halves and the bias row whole, and writes
  back rows 4000·t … of the result. So entry (p, q) of what point `t` writes is entry (4000·t + p, q) of the
  node update of the whole arrays, and since the ten row blocks tile the 40000 rows the result array ends
  holding the node update everywhere.
-/
import proofs.«124786_j39118562132568_1_alg».proof.Proof.Gen.KernelIdeal.Value
import proofs.«124786_j39118562132568_1_alg».proof.Proof.NodeUpdate
import proofs.«124786_j39118562132568_1_alg».proof.Proof.BlockUpdate
import proofs.«124786_j39118562132568_1_alg».proof.Proof.RegionArrays
import Idealize.ShloMosaic.Lib.Pipeline.Value
import Idealize.ShloMosaic.Lib.ValueIdx

noncomputable section

namespace Cert.KernelIdeal.KernelUpdate

open Cert.KernelIdeal Cert.KernelIdeal.Gen Cert.KernelIdeal.Value
open Idealize.ShloMosaic Idealize.ShloMosaic.TcCoe Idealize.SL.Sem
open Idealize.ShloMosaic.Pipeline (Dat)
open Idealize.ShloMosaic.ValueIdx Cert.NodeUpdate Cert.KernelIdeal.RegionArrays Cert.KernelIdeal.BlockUpdate

variable (m : (ℓ : Loc nD τ sig) → Buf (Elt Ideal) ℓ) (ρ : Dev nD → PrngReg)

/-- The body loads and stores whole blocks: every access starts at offset (0, 0). -/
theorem hz : (![0, 0] : Fin 2 → Nat) = fun _ => 0 := funext fun a => by fin_cases a <;> rfl

/-- The node update of the launch's arrays: what the result array ends holding. -/
def result (c : Dev nD) : FVec Ideal S40000x128 .f32 :=
  update (m ((c : Thread nD τ).loc main_arg0))
    (aggregate (m ((c : Thread nD τ).loc main_arg1)) (m ((c : Thread nD τ).loc main_arg2)))
    (m ((c : Thread nD τ).loc main_arg3)) (m ((c : Thread nD τ).loc main_arg4))

/-- The block index maps over the ten grid points: the two row-blocked inputs and the output move down the rows
    with the point; the weight halves and the bias row stay put. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of the node-feature block at point `t` is row 4000·t + r of the node features. -/
theorem features_block (c : Dev nD) (t : Fin cfg0.N) (r : Fin 4000) (k : Fin 128) (n : Fin 40000)
    (hn : n.val = t.val * 4000 + r.val) :
    (iblk m c 0 t : Vec Ideal S4000x128 .f32) (ix2 r k)
      = (m ((c : Thread nD τ).loc main_arg0) : S40000x128.Idx → EReal) (ix2 n k) := by
  obtain ⟨a0, a1, -⟩ := block_index t
  show V m c main_arg0 (((cfg0.win 0).blk t).view.emb (ix2 r k)) = _
  refine (congrFun (V_main_arg0 m c) _).trans (congrArg _ (funext fun a => Fin.ext ?_))
  match a with
  | ⟨0, _⟩ => show win0_0.index t (0 : Fin 2) * 4000 + 1 * r.val = n.val; omega
  | ⟨1, _⟩ => show win0_0.index t (1 : Fin 2) * 128 + 1 * k.val = k.val; omega

/-- Row `r` of the aggregate block at point `t` is row 4000·t + r of the aggregate. -/
theorem aggregate_block (c : Dev nD) (t : Fin cfg0.N) (r : Fin 4000) (k : Fin 128) (n : Fin 40000)
    (hn : n.val = t.val * 4000 + r.val) :
    (iblk m c 1 t : Vec Ideal S4000x128 .f32) (ix2 r k)
      = aggregate (m ((c : Thread nD τ).loc main_arg1)) (m ((c : Thread nD τ).loc main_arg2)) (ix2 n k) := by
  obtain ⟨-, -, b0, b1, -⟩ := block_index t
  show V m c main_v2 (((cfg0.win 1).blk t).view.emb (ix2 r k)) = _
  refine (congrFun (V_aggregate m c) _).trans (congrArg _ (funext fun a => Fin.ext ?_))
  match a with
  | ⟨0, _⟩ => show win0_1.index t (0 : Fin 2) * 4000 + 1 * r.val = n.val; omega
  | ⟨1, _⟩ => show win0_1.index t (1 : Fin 2) * 128 + 1 * k.val = k.val; omega

/-- The first weight block is the same at every point: entry (k, q) is `W[q, k]`. -/
theorem wx_block (c : Dev nD) (t : Fin cfg0.N) (k q : Fin 128) :
    (iblk m c 2 t : Vec Ideal S128x128 .f32) (ix2 k q)
      = (m ((c : Thread nD τ).loc main_arg3) : S128x256.Idx → EReal) (ix2 q (colX k)) := by
  obtain ⟨-, -, -, -, c0, c1, -⟩ := block_index t
  show V m c main_v4 (((cfg0.win 2).blk t).view.emb (ix2 k q)) = _
  refine (congrArg (V m c main_v4) (funext fun a => Fin.ext ?_)).trans (V_wx_apply m c k q)
  match a with
  | ⟨0, _⟩ => show win0_2.index t (0 : Fin 2) * 128 + 1 * k.val = k.val; omega
  | ⟨1, _⟩ => show win0_2.index t (1 : Fin 2) * 128 + 1 * q.val = q.val; omega

/-- The second weight block is the same at every point: entry (k, q) is `W[q, 128 + k]`. -/
theorem wh_block (c : Dev nD) (t : Fin cfg0.N) (k q : Fin 128) :
    (iblk m c 3 t : Vec Ideal S128x128 .f32) (ix2 k q)
      = (m ((c : Thread nD τ).loc main_arg3) : S128x256.Idx → EReal) (ix2 q (colH k)) := by
  obtain ⟨-, -, -, -, -, -, d0, d1, -⟩ := block_index t
  show V m c main_v6 (((cfg0.win 3).blk t).view.emb (ix2 k q)) = _
  refine (congrArg (V m c main_v6) (funext fun a => Fin.ext ?_)).trans (V_wh_apply m c k q)
  match a with
  | ⟨0, _⟩ => show win0_3.index t (0 : Fin 2) * 128 + 1 * k.val = k.val; omega
  | ⟨1, _⟩ => show win0_3.index t (1 : Fin 2) * 128 + 1 * q.val = q.val; omega

/-- The bias block is the same at every point: entry (0, q) is `b[q]`. -/
theorem bias_block (c : Dev nD) (t : Fin cfg0.N) (q : Fin 128) :
    (iblk m c 4 t : Vec Ideal S1x128 .f32) (ix2 (0 : Fin 1) q)
      = (m ((c : Thread nD τ).loc main_arg4) : S128.Idx → EReal) (ix1 q) := by
  obtain ⟨-, -, -, -, -, -, -, -, e0, e1, -⟩ := block_index t
  show V m c main_v7 (((cfg0.win 4).blk t).view.emb (ix2 (0 : Fin 1) q)) = _
  refine (congrArg (V m c main_v7) (funext fun a => Fin.ext ?_)).trans (V_bias_apply m c 0 q)
  match a with
  | ⟨0, _⟩ => show win0_4.index t (0 : Fin 2) * 1 + 1 * 0 = 0; omega
  | ⟨1, _⟩ => show win0_4.index t (1 : Fin 2) * 128 + 1 * q.val = q.val; omega

/-- What point `t` writes back is its block of 4000 rows of the node update. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz]
  simp only [View.ld_unit_zero (S := S4000x128) hz, View.ld_unit_zero (S := S128x128) hz, View.ld_unit_zero (S := S1x128) hz]
  obtain ⟨-, -, -, -, -, -, -, -, -, -, f0, f1⟩ := block_index t
  funext y
  show k0_pay1 (F := Ideal) (iblk m c 0 t) (iblk m c 1 t) (iblk m c 2 t) (iblk m c 3 t) (iblk m c 4 t) y
      = entry (m ((c : Thread nD τ).loc main_arg0))
          (aggregate (m ((c : Thread nD τ).loc main_arg1)) (m ((c : Thread nD τ).loc main_arg2)))
          (m ((c : Thread nD τ).loc main_arg3)) (m ((c : Thread nD τ).loc main_arg4))
          ((((cfg0.win 5).blk t).view.emb y) 0) ((((cfg0.win 5).blk t).view.emb y) 1)
  have hn : ((((cfg0.win 5).blk t).view.emb y) 0).val = t.val * 4000 + (y 0).val := by
    show win0_5.index t (0 : Fin 2) * 4000 + 1 * (y 0).val = _; omega
  have ho : (((cfg0.win 5).blk t).view.emb y) 1 = y 1 :=
    Fin.ext (by show win0_5.index t (1 : Fin 2) * 128 + 1 * (y 1).val = (y 1).val; omega)
  refine (congrArg (k0_pay1 (F := Ideal) (iblk m c 0 t) (iblk m c 1 t) (iblk m c 2 t) (iblk m c 3 t) (iblk m c 4 t))
    (eq_ix2 (n0 := 4000) (n1 := 128) y)).trans ?_
  refine (body_entry (m ((c : Thread nD τ).loc main_arg0))
      (aggregate (m ((c : Thread nD τ).loc main_arg1)) (m ((c : Thread nD τ).loc main_arg2)))
      (m ((c : Thread nD τ).loc main_arg3)) (m ((c : Thread nD τ).loc main_arg4))
      (iblk m c 0 t) (iblk m c 1 t) (iblk m c 2 t) (iblk m c 3 t) (iblk m c 4 t)
      ((((cfg0.win 5).blk t).view.emb y) 0) (y 1) (y 0) (y 1)
      (fun k => features_block m c t (y 0) k _ hn) (fun k => aggregate_block m c t (y 0) k _ hn)
      (fun k => wx_block m c t k (y 1)) (fun k => wh_block m c t k (y 1)) (bias_block m c t (y 1))).trans ?_
  exact congrArg (entry _ _ _ _ _) ho.symm

/-- An index of the result array lies in point `t`'s block iff each coordinate is in the block's range. -/
theorem mem_block (t : Fin cfg0.N) (i : S40000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v8).slice (win0_5.rect t)).set ↔ _
  rw [View.set_slice_whole, Rect.mem_set_unit]
  exact Iff.rfl

/-- The ten row blocks tile the 40000 rows: node `n` is written by point `n / 4000`. -/
theorem covered (i : S40000x128.Idx) :
    ∃ t : Fin cfg0.N, (cfg0.win 5).flush t = true ∧ i ∈ ((cfg0.win 5).blk t).view.set := by
  have hi0 : (i 0).val < 40000 := (i 0).isLt
  have hi1 : (i 1).val < 128 := (i 1).isLt
  have hN : cfg0.N = 10 := N_0
  refine ⟨⟨(i 0).val / 4000, by rw [hN]; omega⟩, flush0_5 _, ?_⟩
  rw [mem_block]
  obtain ⟨-, -, -, -, -, -, -, -, -, -, f0, f1⟩ := block_index ⟨(i 0).val / 4000, by rw [hN]; omega⟩
  intro a
  match a with
  | ⟨0, _⟩ =>
    show win0_5.index _ (0 : Fin 2) * 4000 ≤ (i 0).val ∧ (i 0).val < win0_5.index _ (0 : Fin 2) * 4000 + 4000
    rw [f0]; show (i 0).val / 4000 * 4000 ≤ (i 0).val ∧ (i 0).val < (i 0).val / 4000 * 4000 + 4000; omega
  | ⟨1, _⟩ =>
    show win0_5.index _ (1 : Fin 2) * 128 ≤ (i 1).val ∧ (i 1).val < win0_5.index _ (1 : Fin 2) * 128 + 128
    rw [f1]; omega

/-- Every row being in some point's block, the result array ends holding the node update of the launch's arrays. -/
theorem final (c : Dev nD) : (dats m 0 c).arrAt 5 cfg0.N = result m c :=
  (dats m 0 c).arrAt_eq_of_cover 5 (result m c) (fun t _ => flushed_eq m c t) (covered)

/-- The kernel's run, read: the result array at the node update, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.KernelUpdate

end
-- ==== Proof.lean ====
/-
  The last layer of a message-passing network: every node's features and the sum of the messages on its incoming
  edges go through one affine map and a clamp at zero,

      out[n, o] = max (∑_{f<256} [x[n,·] | agg[n,·]][f] · W[o, f] + b[o]) 0,     agg = the edge messages added by destination.

  The reference joins `x` and `agg` into one [40000, 256] array and contracts it against `W`. The kernel never joins
  them: outside the kernel the weights are cut into their two 128-column halves and transposed, and the kernel, on
  4000 nodes at a time, adds the two products `x·Wxᵀ` and `agg·Whᵀ` and the bias and clamps. Both scatter the messages with
  the same host operation, so the aggregate is one term on both sides and is never opened.

  On the extended reals the two agree entry by entry because a sum of 256 products is the sum of its first 128 and
  of its last 128 (`NodeUpdate.sum_halves`) — only commutativity and associativity of addition, so the finiteness of
  the inputs is never used. `NodeUpdate.update` is the common value; `ReferenceUpdate` shows the reference's result is
  it, `BlockUpdate`, `RegionArrays` and `KernelUpdate` that the kernel's result array is it. The idealized kernel is the
  kernel's own text read at the extended reals (no rewrite was applied), so that conjunct is trivial; the three frames
  are the generated ones, the reference's being its generated run with the result dropped.
-/
import proofs.«124786_j39118562132568_1_alg».proof.Defs
import proofs.«124786_j39118562132568_1_alg».proof.Proof.Gen.Kernel
import proofs.«124786_j39118562132568_1_alg».proof.Proof.Gen.Kernel.Skeleton
import proofs.«124786_j39118562132568_1_alg».proof.Proof.Gen.Kernel.Launch
import proofs.«124786_j39118562132568_1_alg».proof.Proof.Gen.Kernel.Points
import proofs.«124786_j39118562132568_1_alg».proof.Proof.Gen.Kernel.Frame
import proofs.«124786_j39118562132568_1_alg».proof.Proof.Gen.KernelIdeal
import proofs.«124786_j39118562132568_1_alg».proof.Proof.Gen.KernelIdeal.Skeleton
import proofs.«124786_j39118562132568_1_alg».proof.Proof.Gen.KernelIdeal.Launch
import proofs.«124786_j39118562132568_1_alg».proof.Proof.Gen.KernelIdeal.Points
import proofs.«124786_j39118562132568_1_alg».proof.Proof.Gen.KernelIdeal.Frame
import proofs.«124786_j39118562132568_1_alg».proof.Proof.Gen.ReferenceIdeal
import proofs.«124786_j39118562132568_1_alg».proof.Proof.Gen.Pre_finite_inputs
import proofs.«124786_j39118562132568_1_alg».proof.Proof.Gen.KernelIdeal.Value
import proofs.«124786_j39118562132568_1_alg».proof.Proof.Gen.ReferenceIdeal.Run
import proofs.«124786_j39118562132568_1_alg».proof.Proof.Gen.ReferenceIdeal.Read
import proofs.«124786_j39118562132568_1_alg».proof.Proof.NodeUpdate
import proofs.«124786_j39118562132568_1_alg».proof.Proof.ReferenceUpdate
import proofs.«124786_j39118562132568_1_alg».proof.Proof.KernelUpdate
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference has no kernel: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten when it was read at the extended reals. -/
theorem preserves : Cert.preserves_Kernel_KernelIdeal := trivial

/-- From memories that agree on the five arguments both programs end with the node update of those arguments in
    their result arrays: the kernel's run leaves it there block by block, the reference's result term is it once its
    256-term contraction is split in two, and the aggregates are the same scatter of the same arguments. -/
theorem algebraic : Cert.algebraic_KernelIdeal_ReferenceIdeal := by
  intro m ρ m' ρ' _ hagree
  refine ⟨fun c => Cert.KernelIdeal.KernelUpdate.result m c, Cert.KernelIdeal.KernelUpdate.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v8_eq (F := Ideal) _ _ _ _ _).trans ?_
  refine (Cert.ReferenceIdeal.RefUpdate.result_eq _ _ _ _ _).trans ?_
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
